-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 106
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S1700000, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's whole run, with its result NAMED. The program is four pipelined regions among stretches of
  host operations; the buffer contents at the boundaries between them form a chain W0 (launch), W1, W2 (entry of the
  first matrix product), W3 (its exit), W4 (entry of the bias-and-relu pass), W5, W6 (exit of the second matrix
  product), W7 (entry of the last bias pass), W8 (return). Every weakly fair execution terminates, nothing faults,
  every unscoped buffer ends at the contents W8 — in particular the result buffer — and the arguments end as launched.
  What W8 holds at the result buffer, as a function of the arguments, is read off in the sibling modules.
-/
import proofs.«173803_j26431228740293_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, with
    the result buffer at the last boundary's contents and the argument arrays as launched: the launch over the
    program's segments, the last thread state (every unscoped buffer at W8) read against the final state. -/
theorem run_regions : θ_run defs (onTc (τ := τ) (main (F := F))) ⟨m, fun _ => 0, ρ⟩ (fun r => ∀ c : Dev nD,
      r.2.mem ((c.tc : Thread nD τ).loc main_v78) = W8 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.Entry.lean ====
/-
  What the first matrix product finds when it is entered: the host operations before it only prepare the graph's
  edge lists and the degree normalisation, all functions of the edge-index argument alone, and leave every argument
  array as launched. Each prepared buffer is identified with the value the reference program computes for it:
  the source list (edge sources followed by the self loops 0 … N-1), the target list, and the vector
  d(v) = [deg v > 0] · rsqrt(max(deg v, 1)), deg the number of edges, self loop included, that end in v.
-/
import proofs.«173803_j26431228740293_1_alg».proof.Proof.Gen.KernelIdeal.Frame
import proofs.«173803_j26431228740293_1_alg».proof.Proof.RefReadPatched

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-! ## The edge lists and the normalisation vector at the first region's entry -/

set_option maxHeartbeats 4000000 in
/-- The source list: the first row of the edge index followed by the self loops. -/
theorem entry_src : W2 m ρ c (Proc.devRef .tc main_v3) = val_main_v3 (F := F) (m ((c : Thread nD τ).loc main_arg1)) := by
  show StableHlo.after hostOps0_1 (StableHlo.after hostOps0 (W0 m ρ c)) (Proc.devRef .tc main_v3) = _
  after_results_simp <;> rfl

set_option maxHeartbeats 4000000 in
/-- The target list: the second row of the edge index followed by the self loops. -/
theorem entry_dst : W2 m ρ c (Proc.devRef .tc main_v6) = val_main_v6 (F := F) (m ((c : Thread nD τ).loc main_arg1)) := by
  show StableHlo.after hostOps0_1 (StableHlo.after hostOps0 (W0 m ρ c)) (Proc.devRef .tc main_v6) = _
  after_results_simp <;> rfl

set_option maxHeartbeats 4000000 in
/-- The normalisation vector d. -/
theorem entry_norm : W2 m ρ c (Proc.devRef .tc main_v16) = val_main_v16 (F := F) (m ((c : Thread nD τ).loc main_arg1)) := by
  show StableHlo.after hostOps0_1 (StableHlo.after hostOps0 (W0 m ρ c)) (Proc.devRef .tc main_v16) = _
  after_results_simp <;> rfl

end Cert.KernelIdeal.Whole

end
-- ==== Proof.Carried.lean ====
/-
  Buffers that ride through the program untouched. The edge lists and the normalisation vector are written once,
  before the first region, and only read afterwards; the bias and weight arguments are never written. So at every
  later boundary of the program each of them still holds what it held at the first region's entry: a region changes
  only its own arrays, and a stretch of host operations only the buffers it writes.
-/
import proofs.«173803_j26431228740293_1_alg».proof.Proof.Entry

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

/-! ## Through the first matrix product (its arrays are x, W1 and its own output) -/
theorem exit0_main_v3 : W3 m ρ c (Proc.devRef .tc main_v3) = W2 m ρ c (Proc.devRef .tc main_v3) := W3_of_ne m ρ c main_v3 (by decide)
theorem exit0_main_v6 : W3 m ρ c (Proc.devRef .tc main_v6) = W2 m ρ c (Proc.devRef .tc main_v6) := W3_of_ne m ρ c main_v6 (by decide)
theorem exit0_main_v16 : W3 m ρ c (Proc.devRef .tc main_v16) = W2 m ρ c (Proc.devRef .tc main_v16) := W3_of_ne m ρ c main_v16 (by decide)
theorem exit0_main_arg3 : W3 m ρ c (Proc.devRef .tc main_arg3) = W2 m ρ c (Proc.devRef .tc main_arg3) := W3_of_ne m ρ c main_arg3 (by decide)
theorem exit0_main_arg4 : W3 m ρ c (Proc.devRef .tc main_arg4) = W2 m ρ c (Proc.devRef .tc main_arg4) := W3_of_ne m ρ c main_arg4 (by decide)
theorem exit0_main_arg5 : W3 m ρ c (Proc.devRef .tc main_arg5) = W2 m ρ c (Proc.devRef .tc main_arg5) := W3_of_ne m ρ c main_arg5 (by decide)

/-! ## Through the first aggregation's host operations -/
set_option maxHeartbeats 4000000 in
theorem host1_main_v3 : W4 m ρ c (Proc.devRef .tc main_v3) = W3 m ρ c (Proc.devRef .tc main_v3) := by
  show StableHlo.after hostOps1 (W3 m ρ c) (Proc.devRef .tc main_v3) = _
  after_results_simp
set_option maxHeartbeats 4000000 in
theorem host1_main_v6 : W4 m ρ c (Proc.devRef .tc main_v6) = W3 m ρ c (Proc.devRef .tc main_v6) := by
  show StableHlo.after hostOps1 (W3 m ρ c) (Proc.devRef .tc main_v6) = _
  after_results_simp
set_option maxHeartbeats 4000000 in
theorem host1_main_v16 : W4 m ρ c (Proc.devRef .tc main_v16) = W3 m ρ c (Proc.devRef .tc main_v16) := by
  show StableHlo.after hostOps1 (W3 m ρ c) (Proc.devRef .tc main_v16) = _
  after_results_simp
set_option maxHeartbeats 4000000 in
theorem host1_main_arg4 : W4 m ρ c (Proc.devRef .tc main_arg4) = W3 m ρ c (Proc.devRef .tc main_arg4) := by
  show StableHlo.after hostOps1 (W3 m ρ c) (Proc.devRef .tc main_arg4) = _
  after_results_simp
set_option maxHeartbeats 4000000 in
theorem host1_main_arg5 : W4 m ρ c (Proc.devRef .tc main_arg5) = W3 m ρ c (Proc.devRef .tc main_arg5) := by
  show StableHlo.after hostOps1 (W3 m ρ c) (Proc.devRef .tc main_arg5) = _
  after_results_simp

/-! ## Through the bias-and-relu pass and the second matrix product -/
theorem exit1_main_v3 : W5 m ρ c (Proc.devRef .tc main_v3) = W4 m ρ c (Proc.devRef .tc main_v3) := W5_of_ne m ρ c main_v3 (by decide)
theorem exit1_main_v6 : W5 m ρ c (Proc.devRef .tc main_v6) = W4 m ρ c (Proc.devRef .tc main_v6) := W5_of_ne m ρ c main_v6 (by decide)
theorem exit1_main_v16 : W5 m ρ c (Proc.devRef .tc main_v16) = W4 m ρ c (Proc.devRef .tc main_v16) := W5_of_ne m ρ c main_v16 (by decide)
theorem exit1_main_arg4 : W5 m ρ c (Proc.devRef .tc main_arg4) = W4 m ρ c (Proc.devRef .tc main_arg4) := W5_of_ne m ρ c main_arg4 (by decide)
theorem exit1_main_arg5 : W5 m ρ c (Proc.devRef .tc main_arg5) = W4 m ρ c (Proc.devRef .tc main_arg5) := W5_of_ne m ρ c main_arg5 (by decide)
theorem exit2_main_v3 : W6 m ρ c (Proc.devRef .tc main_v3) = W5 m ρ c (Proc.devRef .tc main_v3) := W6_of_ne m ρ c main_v3 (by decide)
theorem exit2_main_v6 : W6 m ρ c (Proc.devRef .tc main_v6) = W5 m ρ c (Proc.devRef .tc main_v6) := W6_of_ne m ρ c main_v6 (by decide)
theorem exit2_main_v16 : W6 m ρ c (Proc.devRef .tc main_v16) = W5 m ρ c (Proc.devRef .tc main_v16) := W6_of_ne m ρ c main_v16 (by decide)
theorem exit2_main_arg5 : W6 m ρ c (Proc.devRef .tc main_arg5) = W5 m ρ c (Proc.devRef .tc main_arg5) := W6_of_ne m ρ c main_arg5 (by decide)

/-! ## The arguments at the first region's entry are the launch contents -/
set_option maxHeartbeats 4000000 in
theorem entry_arg0 : W2 m ρ c (Proc.devRef .tc main_arg0) = m ((c : Thread nD τ).loc main_arg0) := by
  show StableHlo.after hostOps0_1 (StableHlo.after hostOps0 (W0 m ρ c)) (Proc.devRef .tc main_arg0) = _
  after_results_simp <;> rfl
set_option maxHeartbeats 4000000 in
theorem entry_arg1 : W2 m ρ c (Proc.devRef .tc main_arg1) = m ((c : Thread nD τ).loc main_arg1) := by
  show StableHlo.after hostOps0_1 (StableHlo.after hostOps0 (W0 m ρ c)) (Proc.devRef .tc main_arg1) = _
  after_results_simp <;> rfl
set_option maxHeartbeats 4000000 in
theorem entry_arg2 : W2 m ρ c (Proc.devRef .tc main_arg2) = m ((c : Thread nD τ).loc main_arg2) := by
  show StableHlo.after hostOps0_1 (StableHlo.after hostOps0 (W0 m ρ c)) (Proc.devRef .tc main_arg2) = _
  after_results_simp <;> rfl
set_option maxHeartbeats 4000000 in
theorem entry_arg3 : W2 m ρ c (Proc.devRef .tc main_arg3) = m ((c : Thread nD τ).loc main_arg3) := by
  show StableHlo.after hostOps0_1 (StableHlo.after hostOps0 (W0 m ρ c)) (Proc.devRef .tc main_arg3) = _
  after_results_simp <;> rfl
set_option maxHeartbeats 4000000 in
theorem entry_arg4 : W2 m ρ c (Proc.devRef .tc main_arg4) = m ((c : Thread nD τ).loc main_arg4) := by
  show StableHlo.after hostOps0_1 (StableHlo.after hostOps0 (W0 m ρ c)) (Proc.devRef .tc main_arg4) = _
  after_results_simp <;> rfl
set_option maxHeartbeats 4000000 in
theorem entry_arg5 : W2 m ρ c (Proc.devRef .tc main_arg5) = m ((c : Thread nD τ).loc main_arg5) := by
  show StableHlo.after hostOps0_1 (StableHlo.after hostOps0 (W0 m ρ c)) (Proc.devRef .tc main_arg5) = _
  after_results_simp <;> rfl

/-! ## What each later reader finds -/

/-- The first aggregation reads the edge lists and the normalisation vector as prepared. -/
theorem agg1_src : W3 m ρ c (Proc.devRef .tc main_v3) = val_main_v3 (F := F) (m ((c : Thread nD τ).loc main_arg1)) :=
  (exit0_main_v3 m ρ c).trans (entry_src m ρ c)
theorem agg1_dst : W3 m ρ c (Proc.devRef .tc main_v6) = val_main_v6 (F := F) (m ((c : Thread nD τ).loc main_arg1)) :=
  (exit0_main_v6 m ρ c).trans (entry_dst m ρ c)
theorem agg1_norm : W3 m ρ c (Proc.devRef .tc main_v16) = val_main_v16 (F := F) (m ((c : Thread nD τ).loc main_arg1)) :=
  (exit0_main_v16 m ρ c).trans (entry_norm m ρ c)
/-- The first bias is the launch contents of its argument. -/
theorem agg1_bias : W3 m ρ c (Proc.devRef .tc main_arg3) = m ((c : Thread nD τ).loc main_arg3) :=
  (exit0_main_arg3 m ρ c).trans (entry_arg3 m ρ c)
/-- The second weight matrix, read by the second matrix product. -/
theorem mm2_weight : W5 m ρ c (Proc.devRef .tc main_arg4) = m ((c : Thread nD τ).loc main_arg4) :=
  (exit1_main_arg4 m ρ c).trans ((host1_main_arg4 m ρ c).trans ((exit0_main_arg4 m ρ c).trans (entry_arg4 m ρ c)))
/-- The second aggregation reads the same edge lists and normalisation vector. -/
theorem agg2_src : W6 m ρ c (Proc.devRef .tc main_v3) = val_main_v3 (F := F) (m ((c : Thread nD τ).loc main_arg1)) :=
  (exit2_main_v3 m ρ c).trans ((exit1_main_v3 m ρ c).trans ((host1_main_v3 m ρ c).trans (agg1_src m ρ c)))
theorem agg2_dst : W6 m ρ c (Proc.devRef .tc main_v6) = val_main_v6 (F := F) (m ((c : Thread nD τ).loc main_arg1)) :=
  (exit2_main_v6 m ρ c).trans ((exit1_main_v6 m ρ c).trans ((host1_main_v6 m ρ c).trans (agg1_dst m ρ c)))
theorem agg2_norm : W6 m ρ c (Proc.devRef .tc main_v16) = val_main_v16 (F := F) (m ((c : Thread nD τ).loc main_arg1)) :=
  (exit2_main_v16 m ρ c).trans ((exit1_main_v16 m ρ c).trans ((host1_main_v16 m ρ c).trans (agg1_norm m ρ c)))
/-- The second bias is the launch contents of its argument. -/
theorem agg2_bias : W6 m ρ c (Proc.devRef .tc main_arg5) = m ((c : Thread nD τ).loc main_arg5) :=
  (exit2_main_arg5 m ρ c).trans ((exit1_main_arg5 m ρ c).trans ((host1_main_arg5 m ρ c).trans ((exit0_main_arg5 m ρ c).trans (entry_arg5 m ρ c))))

end Cert.KernelIdeal.Whole

end
-- ==== Proof.Aggregate1.lean ====
/-
  The first layer's aggregation, between the first matrix product and the bias-and-relu pass: host operations that read
  the projected features x·W1, the edge lists and the normalisation vector, and write the aggregated messages.
-/
import proofs.«173803_j26431228740293_1_alg».proof.Proof.Gen.KernelIdeal.Frame
import proofs.«173803_j26431228740293_1_alg».proof.Proof.RefReadPatched

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

set_option maxHeartbeats 8000000 in
/-- The aggregated messages: entry v of the result is the sum, over the edges e that end in v, of the row of the
    projected features at e's source scaled by d(source e) · d(target e) — the same gathers, products and scatter-add,
    on the same edge lists, as the reference program's. -/
theorem aggregate1
    (hx : W3 m ρ c (Proc.devRef .tc main_v17) = val_main_v17 (F := F) (m ((c : Thread nD τ).loc main_arg0)) (m ((c : Thread nD τ).loc main_arg2)))
    (hs : W3 m ρ c (Proc.devRef .tc main_v3) = val_main_v3 (F := F) (m ((c : Thread nD τ).loc main_arg1)))
    (hd : W3 m ρ c (Proc.devRef .tc main_v6) = val_main_v6 (F := F) (m ((c : Thread nD τ).loc main_arg1)))
    (hn : W3 m ρ c (Proc.devRef .tc main_v16) = val_main_v16 (F := F) (m ((c : Thread nD τ).loc main_arg1))) :
    W4 m ρ c (Proc.devRef .tc main_v45) = val_main_v45 (F := F) (m ((c : Thread nD τ).loc main_arg0)) (m ((c : Thread nD τ).loc main_arg1)) (m ((c : Thread nD τ).loc main_arg2)) := by
  show StableHlo.after hostOps1 (W3 m ρ c) (Proc.devRef .tc main_v45) = _
  after_results_simp
  rw [hx, hs, hd, hn]
  rfl

set_option maxHeartbeats 8000000 in
/-- The bias, laid out as one row for the pass that adds it. -/
theorem biasRow1 (hb : W3 m ρ c (Proc.devRef .tc main_arg3) = m ((c : Thread nD τ).loc main_arg3)) :
    W4 m ρ c (Proc.devRef .tc main_v46) = shapeCast _ (m ((c : Thread nD τ).loc main_arg3)) shapeCasts_S128_S1x128 := by
  show StableHlo.after hostOps1 (W3 m ρ c) (Proc.devRef .tc main_v46) = _
  after_results_simp
  rw [hb]
  rfl

end Cert.KernelIdeal.Whole

end
-- ==== Proof.Aggregate2.lean ====
/-
  The second layer's aggregation, between the second matrix product and the last bias pass: host operations that read
  the projected hidden features h·W2, the edge lists and the normalisation vector, and write the aggregated messages.
-/
import proofs.«173803_j26431228740293_1_alg».proof.Proof.Gen.KernelIdeal.Frame
import proofs.«173803_j26431228740293_1_alg».proof.Proof.RefReadPatched

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

set_option maxHeartbeats 8000000 in
/-- The aggregated messages: entry v of the result is the sum, over the edges e that end in v, of the row of the
    projected features at e's source scaled by d(source e) · d(target e) — the same gathers, products and scatter-add,
    on the same edge lists, as the reference program's. -/
theorem aggregate2
    (hx : W6 m ρ c (Proc.devRef .tc main_v48) = val_main_v50 (F := F) (m ((c : Thread nD τ).loc main_arg0)) (m ((c : Thread nD τ).loc main_arg1)) (m ((c : Thread nD τ).loc main_arg2)) (m ((c : Thread nD τ).loc main_arg3)) (m ((c : Thread nD τ).loc main_arg4)))
    (hs : W6 m ρ c (Proc.devRef .tc main_v3) = val_main_v3 (F := F) (m ((c : Thread nD τ).loc main_arg1)))
    (hd : W6 m ρ c (Proc.devRef .tc main_v6) = val_main_v6 (F := F) (m ((c : Thread nD τ).loc main_arg1)))
    (hn : W6 m ρ c (Proc.devRef .tc main_v16) = val_main_v16 (F := F) (m ((c : Thread nD τ).loc main_arg1))) :
    W7 m ρ c (Proc.devRef .tc main_v76) = val_main_v78 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v76) = _
  after_results_simp
  rw [hx, hs, hd, hn]
  rfl

set_option maxHeartbeats 8000000 in
/-- The bias, laid out as one row for the pass that adds it. -/
theorem biasRow2 (hb : W6 m ρ c (Proc.devRef .tc main_arg5) = m ((c : Thread nD τ).loc main_arg5)) :
    W7 m ρ c (Proc.devRef .tc main_v77) = shapeCast _ (m ((c : Thread nD τ).loc main_arg5)) shapeCasts_S64_S1x64 := by
  show StableHlo.after hostOps3 (W6 m ρ c) (Proc.devRef .tc main_v77) = _
  after_results_simp
  rw [hb]
  rfl

end Cert.KernelIdeal.Whole

end
-- ==== Proof.LayerStages.lean ====
/- The four dense stages of a two-layer graph convolution, each as ONE function of its two operand arrays, index by
   index, over literal shapes: rows times a weight matrix (twice), and a bias row added to every row (once under a
   maximum with zero, once bare). No program is imported: both sides of the equivalence can name these functions. -/
import Idealize.ShloMosaic.Lib.ValueIdx

noncomputable section

open scoped BigOperators

namespace Cert.KernelIdeal.Regions

open Idealize.ShloMosaic Idealize.ShloMosaic.ValueIdx

/-- The zero offsets of a whole-block access of a rank-2 buffer, as the constant function. -/
theorem zero_offsets2 : (![0, 0] : Fin 2 → Nat) = fun _ => 0 := funext fun a => by fin_cases a <;> rfl

/-- Rows times a matrix: entry (r, q) of the product of an n×k array by a k×m array is the sum over l of x(r, l) · w(l, q). -/
def rowsMatmul {n k m : Nat} (x : (⟨2, ![n, k]⟩ : Shape).Idx → EReal) (w : (⟨2, ![k, m]⟩ : Shape).Idx → EReal) :
    (⟨2, ![n, m]⟩ : Shape).Idx → EReal :=
  fun i => ∑ l : Fin k, x (ix2 (⟨(i 0).val, idx2_lt0 i⟩ : Fin n) l) * w (ix2 l (⟨(i 1).val, idx2_lt1 i⟩ : Fin m))

/-- At an index given by its coordinates. -/
theorem rowsMatmul_ix2 {n k m : Nat} (x : (⟨2, ![n, k]⟩ : Shape).Idx → EReal) (w : (⟨2, ![k, m]⟩ : Shape).Idx → EReal)
    (r : Fin n) (q : Fin m) : rowsMatmul x w (ix2 r q) = ∑ l : Fin k, x (ix2 r l) * w (ix2 l q) := rfl

/-- The first layer's product: a 100000×128 array by a 128×128 matrix. -/
abbrev mm128 (x : (⟨2, ![100000, 128]⟩ : Shape).Idx → EReal) (w : (⟨2, ![128, 128]⟩ : Shape).Idx → EReal) :
    (⟨2, ![100000, 128]⟩ : Shape).Idx → EReal := rowsMatmul x w

/-- The second layer's product: a 100000×128 array by a 128×64 matrix. -/
abbrev mm64 (x : (⟨2, ![100000, 128]⟩ : Shape).Idx → EReal) (w : (⟨2, ![128, 64]⟩ : Shape).Idx → EReal) :
    (⟨2, ![100000, 64]⟩ : Shape).Idx → EReal := rowsMatmul x w

/-- A one-row array added to every row of an n×m array: entry (r, q) is a(r, q) + b(0, q). -/
def addRow {n m : Nat} (a : (⟨2, ![n, m]⟩ : Shape).Idx → EReal) (b : (⟨2, ![1, m]⟩ : Shape).Idx → EReal) :
    (⟨2, ![n, m]⟩ : Shape).Idx → EReal :=
  fun i => a i + b (ix2 (0 : Fin 1) (⟨(i 1).val, idx2_lt1 i⟩ : Fin m))

/-- At an index given by its coordinates. -/
theorem addRow_ix2 {n m : Nat} (a : (⟨2, ![n, m]⟩ : Shape).Idx → EReal) (b : (⟨2, ![1, m]⟩ : Shape).Idx → EReal)
    (r : Fin n) (q : Fin m) : addRow a b (ix2 r q) = a (ix2 r q) + b (ix2 (0 : Fin 1) q) := rfl

/-- The same under a maximum with a fixed value z: entry (r, q) is max (a(r, q) + b(0, q)) z. -/
def addRowMax {n m : Nat} (z : EReal) (a : (⟨2, ![n, m]⟩ : Shape).Idx → EReal) (b : (⟨2, ![1, m]⟩ : Shape).Idx → EReal) :
    (⟨2, ![n, m]⟩ : Shape).Idx → EReal :=
  fun i => max (addRow a b i) z

/-- At an index given by its coordinates. -/
theorem addRowMax_ix2 {n m : Nat} (z : EReal) (a : (⟨2, ![n, m]⟩ : Shape).Idx → EReal) (b : (⟨2, ![1, m]⟩ : Shape).Idx → EReal)
    (r : Fin n) (q : Fin m) : addRowMax z a b (ix2 r q) = max (a (ix2 r q) + b (ix2 (0 : Fin 1) q)) z := rfl

end Cert.KernelIdeal.Regions

end
-- ==== Proof.MeetReference.lean ====
/-
  The reference program's dense stages are the layer functions. At the extended reals the host's matrix product is
  the plain sum over the contracted axis, so it is "rows times a matrix"; the reference adds a bias by broadcasting
  it to every row, which is "a row added to every row" of the bias laid out as one row; and its relu is the maximum
  with a zero constant.
-/
import proofs.«173803_j26431228740293_1_alg».proof.Proof.LayerStages
import proofs.«173803_j26431228740293_1_alg».proof.Proof.RefReadPatched
import Idealize.ShloMosaic.Lib.ValueLayout
import Idealize.ShloMosaic.PureOps.Ideal.Laws

noncomputable section

open scoped BigOperators

namespace Cert.KernelIdeal.Whole

open Idealize.ShloMosaic Idealize.ShloMosaic.ValueIdx
open Cert.KernelIdeal.Regions
open Cert.ReferenceIdeal.ReadP

/-- The first layer's host matrix product is rows times the weight matrix. -/
theorem hostProduct1 (x : (⟨2, ![100000, 128]⟩ : Shape).Idx → EReal) (w : (⟨2, ![128, 128]⟩ : Shape).Idx → EReal) :
    val_main_v17 (F := Ideal) x w = mm128 x w := by
  funext i
  refine (val_main_v17_apply x w i).trans ?_
  show _ = ∑ l : Fin 128, x (ix2 (⟨(i 0).val, idx2_lt0 i⟩ : Fin 100000) l) * w (ix2 l (⟨(i 1).val, idx2_lt1 i⟩ : Fin 128))
  refine Finset.sum_congr rfl fun k _ => ?_
  have el : lidx_main_v17 i k = ix2 (⟨(i 0).val, idx2_lt0 i⟩ : Fin 100000) k :=
    funext fun a => Fin.ext (by match a with | ⟨0, _⟩ => rfl | ⟨1, _⟩ => rfl)
  have er : ridx_main_v17 i k = ix2 k (⟨(i 1).val, idx2_lt1 i⟩ : Fin 128) :=
    funext fun a => Fin.ext (by match a with | ⟨0, _⟩ => rfl | ⟨1, _⟩ => rfl)
  rw [el, er]

/-- The second layer's host matrix product is rows of the hidden features times the second weight matrix. -/
theorem hostProduct2 (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal) (x4 : (⟨2, ![128, 64]⟩ : Shape).Idx → EReal) :
    val_main_v50 (F := Ideal) x0 x1 x2 x3 x4 = mm64 (val_main_v49 (F := Ideal) x0 x1 x2 x3) x4 := by
  funext i
  refine (val_main_v50_apply x0 x1 x2 x3 x4 i).trans ?_
  generalize val_main_v49 (F := Ideal) x0 x1 x2 x3 = h
  show _ = ∑ l : Fin 128, h (ix2 (⟨(i 0).val, idx2_lt0 i⟩ : Fin 100000) l) * x4 (ix2 l (⟨(i 1).val, idx2_lt1 i⟩ : Fin 64))
  refine Finset.sum_congr rfl fun k _ => ?_
  have el : lidx_main_v50 i k = ix2 (⟨(i 0).val, idx2_lt0 i⟩ : Fin 100000) k :=
    funext fun a => Fin.ext (by match a with | ⟨0, _⟩ => rfl | ⟨1, _⟩ => rfl)
  have er : ridx_main_v50 i k = ix2 k (⟨(i 1).val, idx2_lt1 i⟩ : Fin 64) :=
    funext fun a => Fin.ext (by match a with | ⟨0, _⟩ => rfl | ⟨1, _⟩ => rfl)
  rw [el, er]

/-- The reference's first bias and relu: the bias, cast to one row, added to every row, under the maximum with zero. -/
theorem hostBiasRelu (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal)
    (hrow : (⟨1, ![128]⟩ : Shape).ShapeCasts ⟨2, ![1, 128]⟩) :
    val_main_v49 (F := Ideal) x0 x1 x2 x3
      = addRowMax (Ideal.ofBits .f32 0x00000000#32) (val_main_v45 (F := Ideal) x0 x1 x2)
          (shapeCast ⟨2, ![1, 128]⟩ x3 hrow) := by
  funext i
  obtain ⟨p, q, rfl⟩ : ∃ (p : Fin 100000) (q : Fin 128), i = ix2 p q := ⟨i 0, i 1, eq_ix2 i⟩
  rw [addRowMax_ix2, shapeCast_a_1a_apply, val_main_v49_apply, val_main_v48_apply, val_main_v47_apply, val_main_v46_apply,
    val_main_call1_v0_apply, val_main_call1_cst_apply]
  have e : idx_main_v46 (idx_main_v47 (ix2 p q)) = ix1 q := funext fun a => Fin.ext (by match a with | ⟨0, _⟩ => rfl)
  rw [e]
  rfl

/-- The reference's second bias: the bias, cast to one row, added to every row. -/
theorem hostBias (x0 : (⟨2, ![100000, 128]⟩ : Shape).Idx → EReal) (x1 : (⟨2, ![2, 1600000]⟩ : Shape).Idx → BitVec 32)
    (x2 : (⟨2, ![128, 128]⟩ : Shape).Idx → EReal) (x3 : (⟨1, ![128]⟩ : Shape).Idx → EReal) (x4 : (⟨2, ![128, 64]⟩ : Shape).Idx → EReal)
    (x5 : (⟨1, ![64]⟩ : Shape).Idx → EReal) (hrow : (⟨1, ![64]⟩ : Shape).ShapeCasts ⟨2, ![1, 64]⟩) :
    val_main_v81 (F := Ideal) x0 x1 x2 x3 x4 x5
      = addRow (val_main_v78 (F := Ideal) x0 x1 x2 x3 x4)
          (shapeCast ⟨2, ![1, 64]⟩ x5 hrow) := by
  funext i
  obtain ⟨p, q, rfl⟩ : ∃ (p : Fin 100000) (q : Fin 64), i = ix2 p q := ⟨i 0, i 1, eq_ix2 i⟩
  rw [addRow_ix2, shapeCast_a_1a_apply, val_main_v81_apply, val_main_v80_apply, val_main_v79_apply]
  have e : idx_main_v79 (idx_main_v80 (ix2 p q)) = ix1 q := funext fun a => Fin.ext (by match a with | ⟨0, _⟩ => rfl)
  rw [e]
  rfl

end Cert.KernelIdeal.Whole

end
-- ==== Proof.RowBlocksBias.lean ====
/- The last TensorCore stage of the two-layer graph convolution, read as ONE whole-array function: run by row blocks of
   5000 over a grid of 20 points, each point adds the one-row bias to its block of the aggregated array and writes
   the block back; the blocks tile the 100000 rows, so the result array ends holding `addRow` of the two operand arrays as
   the stage finds them, whatever those contents are. -/
import proofs.«173803_j26431228740293_1_alg».proof.Proof.Gen.KernelIdeal.Frame
import proofs.«173803_j26431228740293_1_alg».proof.Proof.LayerStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Regions

/-! # The last stage: the bias row added to every row, by row blocks of 5000 -/

variable (V : (c : Dev nD) → (b : Ref sig .tc) → Buf (Elt Ideal) ((c : Thread nD τ).loc b))

/-- The body's payload at an index: the block's entry plus the bias row's entry in the same column. -/
theorem bias_payload_apply (x0 : Vec Ideal S5000x64 .f32) (x1 : Vec Ideal S1x64 .f32) (p : Fin 5000) (q : Fin 64) :
    Gen.k3_pay1 x0 x1 (ix2 p q) = x0 (ix2 p q) + x1 (ix2 (0 : Fin 1) q) := by
  unfold Gen.k3_pay1
  simp only [shapeCast_self]
  rw [addf_apply, broadcastTo_1b_ab_apply]

/-- The printed index maps over the grid: the row-block windows sit at block (t, 0), the bias row's at block (0, 0). -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of point t's block of the first operand is entry (5000 t + p, q) of the array. -/
theorem in_block_emb3 (t : Fin cfg3.N) (p : Fin 5000) (q : Fin 64) (h : t.val * 5000 + p.val < 100000) :
    ((cfg3.win 0).blk t).view.emb (ix2 p q) = ix2 (⟨t.val * 5000 + p.val, h⟩ : Fin 100000) q := by
  obtain ⟨e0, e1, e2, e3, e4, e5⟩ := index_facts3 t
  funext a; apply Fin.ext
  match a with
  | ⟨0, _⟩ => show win3_0.index t (0 : Fin 2) * 5000 + 1 * p.val = t.val * 5000 + p.val; rw [e0]; omega
  | ⟨1, _⟩ => show win3_0.index t (1 : Fin 2) * 64 + 1 * q.val = q.val; rw [e1]; omega

/-- Entry (0, q) of the bias row's block is entry (0, q) of the bias row, at every point. -/
theorem row_block_emb3 (t : Fin cfg3.N) (q : Fin 64) :
    ((cfg3.win 1).blk t).view.emb (ix2 (0 : Fin 1) q) = ix2 (0 : Fin 1) q := by
  obtain ⟨e0, e1, e2, e3, e4, e5⟩ := index_facts3 t
  funext a; apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- Entry (p, q) of point t's block of the result is entry (5000 t + p, q) of the array. -/
theorem out_block_emb3 (t : Fin cfg3.N) (p : Fin 5000) (q : Fin 64) (h : t.val * 5000 + p.val < 100000) :
    ((cfg3.win 2).blk t).view.emb (ix2 p q) = ix2 (⟨t.val * 5000 + p.val, h⟩ : Fin 100000) q := by
  obtain ⟨e0, e1, e2, e3, e4, e5⟩ := index_facts3 t
  funext a; apply Fin.ext
  match a with
  | ⟨0, _⟩ => show win3_2.index t (0 : Fin 2) * 5000 + 1 * p.val = t.val * 5000 + p.val; rw [e4]; omega
  | ⟨1, _⟩ => show win3_2.index t (1 : Fin 2) * 64 + 1 * q.val = q.val; rw [e5]; omega

/-- Point t's block of the first operand, read at (p, q). -/
theorem in_block_apply3 (c : Dev nD) (t : Fin cfg3.N) (p : Fin 5000) (q : Fin 64) (h : t.val * 5000 + p.val < 100000) :
    Gen.iblk3 V c 0 t (ix2 p q) = V c main_v76 (ix2 (⟨t.val * 5000 + p.val, h⟩ : Fin 100000) q) := by
  show V c main_v76 (((cfg3.win 0).blk t).view.emb (ix2 p q)) = _
  rw [in_block_emb3 t p q h]

/-- The bias row's block, read at (0, q). -/
theorem row_block_apply3 (c : Dev nD) (t : Fin cfg3.N) (q : Fin 64) :
    Gen.iblk3 V c 1 t (ix2 (0 : Fin 1) q) = V c main_v77 (ix2 (0 : Fin 1) q) := by
  show V c main_v77 (((cfg3.win 1).blk t).view.emb (ix2 (0 : Fin 1) q)) = _
  rw [row_block_emb3 t q]

/-- WHAT POINT t WRITES BACK is block t of the bias row added to every row of the first operand as the region finds them. -/
theorem flushed3_eq (c : Dev nD) (t : Fin cfg3.N) :
    (Gen.dat3 (F := Ideal) V c).flushed 2 t
      = ((cfg3.win 2).blk t).view.read (Elt Ideal) (addRow (V c main_v76) (V c main_v77)) := by
  show (cfg3.win 2).cut (grid3.coords t) ((Gen.dat3 (F := Ideal) V c).after 2 t) = _
  rw [Gen.after3_2]
  unfold Gen.out3_2
  rw [View.canon_unit_zero zero_offsets2]
  simp only [View.ld_unit_zero (S := S5000x64) zero_offsets2, View.ld_unit_zero (S := S1x64) zero_offsets2]
  funext j
  obtain ⟨p, q, rfl⟩ : ∃ (p : Fin 5000) (q : Fin 64), j = ix2 p q := ⟨j 0, j 1, eq_ix2 j⟩
  have hN : cfg3.N = 20 := Gen.N_3
  have ht : t.val * 5000 + p.val < 100000 := by have := t.isLt; have := p.isLt; omega
  refine (bias_payload_apply _ _ p q).trans ?_
  show _ = addRow (V c main_v76) (V c main_v77) (((cfg3.win 2).blk t).view.emb (ix2 p q))
  rw [in_block_apply3 V c t p q ht, row_block_apply3 V c t q, out_block_emb3 t p q ht, addRow_ix2]

/-- An index of the array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v78).slice (win3_2.rect t)).set ↔ _
  rw [View.set_slice_whole, Rect.mem_set_unit]
  exact Iff.rfl

/-- THE COVER: row r of the array is in the block of point r / 5000, which writes back. -/
theorem cover3 (i : S100000x64.Idx) :
    ∃ t : Fin cfg3.N, (cfg3.win 2).flush t = true ∧ i ∈ ((cfg3.win 2).blk t).view.set := by
  have hN : cfg3.N = 20 := Gen.N_3
  have hi0 : (i 0).val < 100000 := (i 0).isLt
  have hi1 : (i 1).val < 64 := (i 1).isLt
  obtain ⟨t, ht⟩ : ∃ t : Fin cfg3.N, t.val = (i 0).val / 5000 := ⟨⟨(i 0).val / 5000, by omega⟩, rfl⟩
  obtain ⟨e0, e1, e2, e3, e4, e5⟩ := index_facts3 t
  refine ⟨t, Gen.flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 64 ≤ (i 1).val ∧ (i 1).val < win3_2.index t (1 : Fin 2) * 64 + 64
    rw [e5]; omega

/-- THE ARRAY after the region: the bias row added to every row of the first operand, as the region finds them. -/
theorem final3 (c : Dev nD) :
    (Gen.dat3 (F := Ideal) V c).arrAt 2 cfg3.N = addRow (V c main_v76) (V c main_v77) :=
  (Gen.dat3 (F := Ideal) V c).arrAt_eq_of_cover 2 (addRow (V c main_v76) (V c main_v77))
    (fun t _ => flushed3_eq V c t) cover3

end Cert.KernelIdeal.Regions

end
-- ==== Proof.RowBlocksBiasMax.lean ====
/- The first layer's activation stage of the two-layer graph convolution, read as ONE whole-array function: run by row
   blocks of 5000 over a grid of 20 points, each point adds the one-row bias to its block of the aggregated array,
   takes the maximum with the word of zero, and writes the block back; the blocks tile the 100000 rows, so the result array
   ends holding `addRowMax` of the two operand arrays as the stage finds them, whatever those contents are. -/
import proofs.«173803_j26431228740293_1_alg».proof.Proof.Gen.KernelIdeal.Frame
import proofs.«173803_j26431228740293_1_alg».proof.Proof.LayerStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Regions

/-! # The first layer's activation: the bias row added to every row under a maximum with zero, by row blocks of 5000 -/

variable (V : (c : Dev nD) → (b : Ref sig .tc) → Buf (Elt Ideal) ((c : Thread nD τ).loc b))

/-- The body's payload at an index: the larger of zero's word and the block's entry plus the bias row's entry in the same column. -/
theorem bias_max_payload_apply (x0 : Vec Ideal S5000x128 .f32) (x1 : Vec Ideal S1x128 .f32) (p : Fin 5000) (q : Fin 128) :
    Gen.k1_pay1 x0 x1 (ix2 p q) = max (x0 (ix2 p q) + x1 (ix2 (0 : Fin 1) q)) (Ideal.ofBits .f32 0x00000000#32) := by
  unfold Gen.k1_pay1
  simp only [shapeCast_self]
  rw [maximumf_apply, addf_apply, broadcastTo_1b_ab_apply, broadcast_apply]
  rfl

/-- The printed index maps over the grid: the row-block windows sit at block (t, 0), the bias row's at block (0, 0). -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of point t's block of the first operand is entry (5000 t + p, q) of the array. -/
theorem in_block_emb1 (t : Fin cfg1.N) (p : Fin 5000) (q : Fin 128) (h : t.val * 5000 + p.val < 100000) :
    ((cfg1.win 0).blk t).view.emb (ix2 p q) = ix2 (⟨t.val * 5000 + p.val, h⟩ : Fin 100000) q := by
  obtain ⟨e0, e1, e2, e3, e4, e5⟩ := index_facts1 t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- Entry (0, q) of the bias row's block is entry (0, q) of the bias row, at every point. -/
theorem row_block_emb1 (t : Fin cfg1.N) (q : Fin 128) :
    ((cfg1.win 1).blk t).view.emb (ix2 (0 : Fin 1) q) = ix2 (0 : Fin 1) q := by
  obtain ⟨e0, e1, e2, e3, e4, e5⟩ := index_facts1 t
  funext a; apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- Entry (p, q) of point t's block of the result is entry (5000 t + p, q) of the array. -/
theorem out_block_emb1 (t : Fin cfg1.N) (p : Fin 5000) (q : Fin 128) (h : t.val * 5000 + p.val < 100000) :
    ((cfg1.win 2).blk t).view.emb (ix2 p q) = ix2 (⟨t.val * 5000 + p.val, h⟩ : Fin 100000) q := by
  obtain ⟨e0, e1, e2, e3, e4, e5⟩ := index_facts1 t
  funext a; apply Fin.ext
  match a with
  | ⟨0, _⟩ => show win1_2.index t (0 : Fin 2) * 5000 + 1 * p.val = t.val * 5000 + p.val; rw [e4]; omega
  | ⟨1, _⟩ => show win1_2.index t (1 : Fin 2) * 128 + 1 * q.val = q.val; rw [e5]; omega

/-- Point t's block of the first operand, read at (p, q). -/
theorem in_block_apply1 (c : Dev nD) (t : Fin cfg1.N) (p : Fin 5000) (q : Fin 128) (h : t.val * 5000 + p.val < 100000) :
    Gen.iblk1 V c 0 t (ix2 p q) = V c main_v45 (ix2 (⟨t.val * 5000 + p.val, h⟩ : Fin 100000) q) := by
  show V c main_v45 (((cfg1.win 0).blk t).view.emb (ix2 p q)) = _
  rw [in_block_emb1 t p q h]

/-- The bias row's block, read at (0, q). -/
theorem row_block_apply1 (c : Dev nD) (t : Fin cfg1.N) (q : Fin 128) :
    Gen.iblk1 V c 1 t (ix2 (0 : Fin 1) q) = V c main_v46 (ix2 (0 : Fin 1) q) := by
  show V c main_v46 (((cfg1.win 1).blk t).view.emb (ix2 (0 : Fin 1) q)) = _
  rw [row_block_emb1 t q]

/-- WHAT POINT t WRITES BACK is block t of the bias row added to every row of the first operand under the maximum with zero's word, as the region finds them. -/
theorem flushed1_eq (c : Dev nD) (t : Fin cfg1.N) :
    (Gen.dat1 (F := Ideal) V c).flushed 2 t
      = ((cfg1.win 2).blk t).view.read (Elt Ideal) (addRowMax (Ideal.ofBits .f32 0x00000000#32) (V c main_v45) (V c main_v46)) := by
  show (cfg1.win 2).cut (grid1.coords t) ((Gen.dat1 (F := Ideal) V c).after 2 t) = _
  rw [Gen.after1_2]
  unfold Gen.out1_2
  rw [View.canon_unit_zero zero_offsets2]
  simp only [View.ld_unit_zero (S := S5000x128) zero_offsets2, View.ld_unit_zero (S := S1x128) zero_offsets2]
  funext j
  obtain ⟨p, q, rfl⟩ : ∃ (p : Fin 5000) (q : Fin 128), j = ix2 p q := ⟨j 0, j 1, eq_ix2 j⟩
  have hN : cfg1.N = 20 := Gen.N_1
  have ht : t.val * 5000 + p.val < 100000 := by have := t.isLt; have := p.isLt; omega
  refine (bias_max_payload_apply _ _ p q).trans ?_
  show _ = addRowMax (Ideal.ofBits .f32 0x00000000#32) (V c main_v45) (V c main_v46) (((cfg1.win 2).blk t).view.emb (ix2 p q))
  rw [in_block_apply1 V c t p q ht, row_block_apply1 V c t q, out_block_emb1 t p q ht, addRowMax_ix2]

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- THE COVER: row r of the array is in the block of point r / 5000, which writes back. -/
theorem cover1 (i : S100000x128.Idx) :
    ∃ t : Fin cfg1.N, (cfg1.win 2).flush t = true ∧ i ∈ ((cfg1.win 2).blk t).view.set := by
  have hN : cfg1.N = 20 := Gen.N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by omega⟩, rfl⟩
  obtain ⟨e0, e1, e2, e3, e4, e5⟩ := index_facts1 t
  refine ⟨t, Gen.flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 128 ≤ (i 1).val ∧ (i 1).val < win1_2.index t (1 : Fin 2) * 128 + 128
    rw [e5]; omega

/-- THE ARRAY after the region: the bias row added to every row of the first operand under the maximum with zero's word, as the region finds them. -/
theorem final1 (c : Dev nD) :
    (Gen.dat1 (F := Ideal) V c).arrAt 2 cfg1.N = addRowMax (Ideal.ofBits .f32 0x00000000#32) (V c main_v45) (V c main_v46) :=
  (Gen.dat1 (F := Ideal) V c).arrAt_eq_of_cover 2 (addRowMax (Ideal.ofBits .f32 0x00000000#32) (V c main_v45) (V c main_v46))
    (fun t _ => flushed1_eq V c t) cover1

end Cert.KernelIdeal.Regions

end
-- ==== Proof.RowBlocksMatmul1.lean ====
/- The first layer's product stage of the two-layer graph convolution, read as ONE whole-array function: run by row
   blocks of 5000 over a grid of 20 points, each point multiplies its block of the 100000×128 feature array by the whole
   128×128 weight matrix and writes the block of the product back; the blocks tile the 100000 rows, so the result array
   ends holding `mm128` of the two operand arrays as the stage finds them, whatever those contents are. -/
import proofs.«173803_j26431228740293_1_alg».proof.Proof.Gen.KernelIdeal.Frame
import proofs.«173803_j26431228740293_1_alg».proof.Proof.LayerStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Regions

/-! # The first layer's product: rows times the 128×128 weight matrix, by row blocks of 5000 -/

variable (V : (c : Dev nD) → (b : Ref sig .tc) → Buf (Elt Ideal) ((c : Thread nD τ).loc b))

/-! ## The body's payload at an index -/

/-- The left operand's index at output index j and contraction index k: row j's, … -/
theorem lhs_row0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … column k's; -/
theorem lhs_col0 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
/-- the right operand's: row k's, … -/
theorem rhs_row0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
/-- … column j's. -/
theorem rhs_col0 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's payload at (p, q): the sum over k of the row block's (p, k) times the weight matrix's (k, q) — the change of
    format on the way into the product is the identity on extended reals, and the accumulator is the zero splat. -/
theorem matmul_payload_apply0 (x0 : Vec Ideal S5000x128 .f32) (x1 : Vec Ideal S128x128 .f32) (p : Fin 5000) (q : Fin 128) :
    Gen.k0_pay1 x0 x1 (ix2 p q) = ∑ k : Fin 128, x0 (ix2 p k) * x1 (ix2 k q) := by
  unfold Gen.k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row0 _ _
      | ⟨1, _⟩ => exact (lhs_col0 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_row0 _ _).trans hk
      | ⟨1, _⟩ => exact rhs_col0 _ _)
  rw [el, er]
  rfl

/-! ## From blocks to the array -/

/-- The printed index maps over the grid: the row-block windows sit at block (t, 0), the weight matrix's at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point t's block of the left operand is entry (5000 t + p, k) of the array. -/
theorem in_block_emb0 (t : Fin cfg0.N) (p : Fin 5000) (k : Fin 128) (h : t.val * 5000 + p.val < 100000) :
    ((cfg0.win 0).blk t).view.emb (ix2 p k) = ix2 (⟨t.val * 5000 + p.val, h⟩ : Fin 100000) k := by
  obtain ⟨e0, e1, e2, e3, e4, e5⟩ := index_facts0 t
  funext a; apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Entry (k, q) of the weight matrix's block is entry (k, q) of the matrix, at every point. -/
theorem weight_block_emb0 (t : Fin cfg0.N) (k : Fin 128) (q : Fin 128) :
    ((cfg0.win 1).blk t).view.emb (ix2 k q) = ix2 k q := by
  obtain ⟨e0, e1, e2, e3, e4, e5⟩ := index_facts0 t
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Entry (p, q) of point t's block of the result is entry (5000 t + p, q) of the array. -/
theorem out_block_emb0 (t : Fin cfg0.N) (p : Fin 5000) (q : Fin 128) (h : t.val * 5000 + p.val < 100000) :
    ((cfg0.win 2).blk t).view.emb (ix2 p q) = ix2 (⟨t.val * 5000 + p.val, h⟩ : Fin 100000) q := by
  obtain ⟨e0, e1, e2, e3, e4, e5⟩ := index_facts0 t
  funext a; apply Fin.ext
  match a with
  | ⟨0, _⟩ => show win0_2.index t (0 : Fin 2) * 5000 + 1 * p.val = t.val * 5000 + p.val; rw [e4]; omega
  | ⟨1, _⟩ => show win0_2.index t (1 : Fin 2) * 128 + 1 * q.val = q.val; rw [e5]; omega

/-- Point t's block of the left operand, read at (p, k). -/
theorem in_block_apply0 (c : Dev nD) (t : Fin cfg0.N) (p : Fin 5000) (k : Fin 128) (h : t.val * 5000 + p.val < 100000) :
    Gen.iblk0 V c 0 t (ix2 p k) = V c main_arg0 (ix2 (⟨t.val * 5000 + p.val, h⟩ : Fin 100000) k) := by
  show V c main_arg0 (((cfg0.win 0).blk t).view.emb (ix2 p k)) = _
  rw [in_block_emb0 t p k h]

/-- The weight matrix's block, read at (k, q). -/
theorem weight_block_apply0 (c : Dev nD) (t : Fin cfg0.N) (k : Fin 128) (q : Fin 128) :
    Gen.iblk0 V c 1 t (ix2 k q) = V c main_arg2 (ix2 k q) := by
  show V c main_arg2 (((cfg0.win 1).blk t).view.emb (ix2 k q)) = _
  rw [weight_block_emb0 t k q]

/-- WHAT POINT t WRITES BACK is block t of the product of the left operand by the weight matrix as the region finds them. -/
theorem flushed0_eq (c : Dev nD) (t : Fin cfg0.N) :
    (Gen.dat0 (F := Ideal) V c).flushed 2 t
      = ((cfg0.win 2).blk t).view.read (Elt Ideal) (mm128 (V c main_arg0) (V c main_arg2)) := by
  show (cfg0.win 2).cut (grid0.coords t) ((Gen.dat0 (F := Ideal) V c).after 2 t) = _
  rw [Gen.after0_2]
  unfold Gen.out0_2
  rw [View.canon_unit_zero zero_offsets2]
  simp only [View.ld_unit_zero (S := S5000x128) zero_offsets2, View.ld_unit_zero (S := S128x128) zero_offsets2]
  funext j
  obtain ⟨p, q, rfl⟩ : ∃ (p : Fin 5000) (q : Fin 128), j = ix2 p q := ⟨j 0, j 1, eq_ix2 j⟩
  have hN : cfg0.N = 20 := Gen.N_0
  have ht : t.val * 5000 + p.val < 100000 := by have := t.isLt; have := p.isLt; omega
  refine (matmul_payload_apply0 _ _ p q).trans ?_
  show _ = mm128 (V c main_arg0) (V c main_arg2) (((cfg0.win 2).blk t).view.emb (ix2 p q))
  rw [out_block_emb0 t p q ht, mm128, rowsMatmul_ix2]
  refine Finset.sum_congr rfl fun k _ => ?_
  rw [in_block_apply0 V c t p k ht, weight_block_apply0 V c t k q]

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v17).slice (win0_2.rect t)).set ↔ _
  rw [View.set_slice_whole, Rect.mem_set_unit]
  exact Iff.rfl

/-- THE COVER: row r of the array is in the block of point r / 5000, which writes back. -/
theorem cover0 (i : S100000x128.Idx) :
    ∃ t : Fin cfg0.N, (cfg0.win 2).flush t = true ∧ i ∈ ((cfg0.win 2).blk t).view.set := by
  have hN : cfg0.N = 20 := Gen.N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨e0, e1, e2, e3, e4, e5⟩ := index_facts0 t
  refine ⟨t, Gen.flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- THE ARRAY after the region: the product of the left operand by the weight matrix, as the region finds them. -/
theorem final0 (c : Dev nD) :
    (Gen.dat0 (F := Ideal) V c).arrAt 2 cfg0.N = mm128 (V c main_arg0) (V c main_arg2) :=
  (Gen.dat0 (F := Ideal) V c).arrAt_eq_of_cover 2 (mm128 (V c main_arg0) (V c main_arg2))
    (fun t _ => flushed0_eq V c t) cover0

end Cert.KernelIdeal.Regions

end
-- ==== Proof.RowBlocksMatmul2.lean ====
/- The second layer's product stage of the two-layer graph convolution, read as ONE whole-array function: run by row
   blocks of 5000 over a grid of 20 points, each point multiplies its block of the 100000×128 activation array by the whole
   128×64 weight matrix and writes the block of the product back; the blocks tile the 100000 rows, so the result array
   ends holding `mm64` of the two operand arrays as the stage finds them, whatever those contents are. -/
import proofs.«173803_j26431228740293_1_alg».proof.Proof.Gen.KernelIdeal.Frame
import proofs.«173803_j26431228740293_1_alg».proof.Proof.LayerStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Regions

/-! # The second layer's product: rows times the 128×64 weight matrix, by row blocks of 5000 -/

variable (V : (c : Dev nD) → (b : Ref sig .tc) → Buf (Elt Ideal) ((c : Thread nD τ).loc b))

/-! ## The body's payload at an index -/

/-- The left operand's index at output index j and contraction index k: row j's, … -/
theorem lhs_row2 (j : S5000x64.Idx) (k : dot_S5000x128_S128x64_S5000x64_1_0_0_1_n_n.contr.Idx) :
    (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- … column k's; -/
theorem lhs_col2 (j : S5000x64.Idx) (k : dot_S5000x128_S128x64_S5000x64_1_0_0_1_n_n.contr.Idx) :
    (dot_S5000x128_S128x64_S5000x64_1_0_0_1_n_n.lhsIdx j k 1).val = (k ⟨0, by decide⟩).val :=
  dot_S5000x128_S128x64_S5000x64_1_0_0_1_n_n.lhsIdx_val_of_single rfl j k
/-- the right operand's: row k's, … -/
theorem rhs_row2 (j : S5000x64.Idx) (k : dot_S5000x128_S128x64_S5000x64_1_0_0_1_n_n.contr.Idx) :
    (dot_S5000x128_S128x64_S5000x64_1_0_0_1_n_n.rhsIdx j k 0).val = (k ⟨0, by decide⟩).val :=
  dot_S5000x128_S128x64_S5000x64_1_0_0_1_n_n.rhsIdx_val_of_single rfl j k
/-- … column j's. -/
theorem rhs_col2 (j : S5000x64.Idx) (k : dot_S5000x128_S128x64_S5000x64_1_0_0_1_n_n.contr.Idx) :
    (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The body's payload at (p, q): the sum over k of the row block's (p, k) times the weight matrix's (k, q) — the change of
    format on the way into the product is the identity on extended reals, and the accumulator is the zero splat. -/
theorem matmul_payload_apply2 (x0 : Vec Ideal S5000x128 .f32) (x1 : Vec Ideal S128x64 .f32) (p : Fin 5000) (q : Fin 64) :
    Gen.k2_pay1 x0 x1 (ix2 p q) = ∑ k : Fin 128, x0 (ix2 p k) * x1 (ix2 k q) := by
  unfold Gen.k2_pay1
  simp only [shapeCast_self, matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs_row2 _ _
      | ⟨1, _⟩ => exact (lhs_col2 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs_row2 _ _).trans hk
      | ⟨1, _⟩ => exact rhs_col2 _ _)
  rw [el, er]
  rfl

/-! ## From blocks to the array -/

/-- The printed index maps over the grid: the row-block windows sit at block (t, 0), the weight matrix's at block (0, 0). -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of point t's block of the left operand is entry (5000 t + p, k) of the array. -/
theorem in_block_emb2 (t : Fin cfg2.N) (p : Fin 5000) (k : Fin 128) (h : t.val * 5000 + p.val < 100000) :
    ((cfg2.win 0).blk t).view.emb (ix2 p k) = ix2 (⟨t.val * 5000 + p.val, h⟩ : Fin 100000) k := by
  obtain ⟨e0, e1, e2, e3, e4, e5⟩ := index_facts2 t
  funext a; apply Fin.ext
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

/-- Entry (k, q) of the weight matrix's block is entry (k, q) of the matrix, at every point. -/
theorem weight_block_emb2 (t : Fin cfg2.N) (k : Fin 128) (q : Fin 64) :
    ((cfg2.win 1).blk t).view.emb (ix2 k q) = ix2 k q := by
  obtain ⟨e0, e1, e2, e3, e4, e5⟩ := index_facts2 t
  funext a; apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- Entry (p, q) of point t's block of the result is entry (5000 t + p, q) of the array. -/
theorem out_block_emb2 (t : Fin cfg2.N) (p : Fin 5000) (q : Fin 64) (h : t.val * 5000 + p.val < 100000) :
    ((cfg2.win 2).blk t).view.emb (ix2 p q) = ix2 (⟨t.val * 5000 + p.val, h⟩ : Fin 100000) q := by
  obtain ⟨e0, e1, e2, e3, e4, e5⟩ := index_facts2 t
  funext a; apply Fin.ext
  match a with
  | ⟨0, _⟩ => show win2_2.index t (0 : Fin 2) * 5000 + 1 * p.val = t.val * 5000 + p.val; rw [e4]; omega
  | ⟨1, _⟩ => show win2_2.index t (1 : Fin 2) * 64 + 1 * q.val = q.val; rw [e5]; omega

/-- Point t's block of the left operand, read at (p, k). -/
theorem in_block_apply2 (c : Dev nD) (t : Fin cfg2.N) (p : Fin 5000) (k : Fin 128) (h : t.val * 5000 + p.val < 100000) :
    Gen.iblk2 V c 0 t (ix2 p k) = V c main_v47 (ix2 (⟨t.val * 5000 + p.val, h⟩ : Fin 100000) k) := by
  show V c main_v47 (((cfg2.win 0).blk t).view.emb (ix2 p k)) = _
  rw [in_block_emb2 t p k h]

/-- The weight matrix's block, read at (k, q). -/
theorem weight_block_apply2 (c : Dev nD) (t : Fin cfg2.N) (k : Fin 128) (q : Fin 64) :
    Gen.iblk2 V c 1 t (ix2 k q) = V c main_arg4 (ix2 k q) := by
  show V c main_arg4 (((cfg2.win 1).blk t).view.emb (ix2 k q)) = _
  rw [weight_block_emb2 t k q]

/-- WHAT POINT t WRITES BACK is block t of the product of the left operand by the weight matrix as the region finds them. -/
theorem flushed2_eq (c : Dev nD) (t : Fin cfg2.N) :
    (Gen.dat2 (F := Ideal) V c).flushed 2 t
      = ((cfg2.win 2).blk t).view.read (Elt Ideal) (mm64 (V c main_v47) (V c main_arg4)) := by
  show (cfg2.win 2).cut (grid2.coords t) ((Gen.dat2 (F := Ideal) V c).after 2 t) = _
  rw [Gen.after2_2]
  unfold Gen.out2_2
  rw [View.canon_unit_zero zero_offsets2]
  simp only [View.ld_unit_zero (S := S5000x128) zero_offsets2, View.ld_unit_zero (S := S128x64) zero_offsets2]
  funext j
  obtain ⟨p, q, rfl⟩ : ∃ (p : Fin 5000) (q : Fin 64), j = ix2 p q := ⟨j 0, j 1, eq_ix2 j⟩
  have hN : cfg2.N = 20 := Gen.N_2
  have ht : t.val * 5000 + p.val < 100000 := by have := t.isLt; have := p.isLt; omega
  refine (matmul_payload_apply2 _ _ p q).trans ?_
  show _ = mm64 (V c main_v47) (V c main_arg4) (((cfg2.win 2).blk t).view.emb (ix2 p q))
  rw [out_block_emb2 t p q ht, mm64, rowsMatmul_ix2]
  refine Finset.sum_congr rfl fun k _ => ?_
  rw [in_block_apply2 V c t p k ht, weight_block_apply2 V c t k q]

/-- An index of the array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v48).slice (win2_2.rect t)).set ↔ _
  rw [View.set_slice_whole, Rect.mem_set_unit]
  exact Iff.rfl

/-- THE COVER: row r of the array is in the block of point r / 5000, which writes back. -/
theorem cover2 (i : S100000x64.Idx) :
    ∃ t : Fin cfg2.N, (cfg2.win 2).flush t = true ∧ i ∈ ((cfg2.win 2).blk t).view.set := by
  have hN : cfg2.N = 20 := Gen.N_2
  have hi0 : (i 0).val < 100000 := (i 0).isLt
  have hi1 : (i 1).val < 64 := (i 1).isLt
  obtain ⟨t, ht⟩ : ∃ t : Fin cfg2.N, t.val = (i 0).val / 5000 := ⟨⟨(i 0).val / 5000, by omega⟩, rfl⟩
  obtain ⟨e0, e1, e2, e3, e4, e5⟩ := index_facts2 t
  refine ⟨t, Gen.flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

/-- THE ARRAY after the region: the product of the left operand by the weight matrix, as the region finds them. -/
theorem final2 (c : Dev nD) :
    (Gen.dat2 (F := Ideal) V c).arrAt 2 cfg2.N = mm64 (V c main_v47) (V c main_arg4) :=
  (Gen.dat2 (F := Ideal) V c).arrAt_eq_of_cover 2 (mm64 (V c main_v47) (V c main_arg4))
    (fun t _ => flushed2_eq V c t) cover2

end Cert.KernelIdeal.Regions

end
-- ==== Proof.Result.lean ====
/-
  What the idealized kernel returns, as a function of its arguments: the reference program's own value.
  Going through the program boundary by boundary: the first region leaves x·W1 (rows times the weight matrix, which
  is the host's matrix product at the extended reals); the host aggregation that follows is the reference's, on the
  same edge lists and normalisation vector; the second region adds the bias row and takes the maximum with zero,
  which is the reference's bias and relu; the third region multiplies by W2; the second host aggregation again is the
  reference's; and the last region adds the second bias row.
-/
import proofs.«173803_j26431228740293_1_alg».proof.Proof.KernelRun
import proofs.«173803_j26431228740293_1_alg».proof.Proof.Carried
import proofs.«173803_j26431228740293_1_alg».proof.Proof.Aggregate1
import proofs.«173803_j26431228740293_1_alg».proof.Proof.Aggregate2
import proofs.«173803_j26431228740293_1_alg».proof.Proof.MeetReference
import proofs.«173803_j26431228740293_1_alg».proof.Proof.RowBlocksBias
import proofs.«173803_j26431228740293_1_alg».proof.Proof.RowBlocksBiasMax
import proofs.«173803_j26431228740293_1_alg».proof.Proof.RowBlocksMatmul1
import proofs.«173803_j26431228740293_1_alg».proof.Proof.RowBlocksMatmul2

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Regions
open Cert.ReferenceIdeal.ReadP

variable (m : (ℓ : Loc nD τ sig) → Buf (Elt Ideal) ℓ) (ρ : Dev nD → PrngReg) (c : Dev nD)

/-- After the first region its output array holds the projected features x·W1. -/
theorem projected1 : W3 m ρ c (Proc.devRef .tc main_v17)
    = val_main_v17 (F := Ideal) (m ((c : Thread nD τ).loc main_arg0)) (m ((c : Thread nD τ).loc main_arg2)) :=
  (W3_arr m ρ c 2).trans ((final0 (V2 m ρ) c).trans (by
    show mm128 (W2 m ρ c (Proc.devRef .tc main_arg0)) (W2 m ρ c (Proc.devRef .tc main_arg2)) = _
    rw [entry_arg0, entry_arg2]
    exact (hostProduct1 _ _).symm))

/-- The first aggregation's result is the reference's. -/
theorem aggregated1 : W4 m ρ c (Proc.devRef .tc main_v45)
    = val_main_v45 (F := Ideal) (m ((c : Thread nD τ).loc main_arg0)) (m ((c : Thread nD τ).loc main_arg1)) (m ((c : Thread nD τ).loc main_arg2)) :=
  aggregate1 m ρ c (projected1 m ρ c) (agg1_src m ρ c) (agg1_dst m ρ c) (agg1_norm m ρ c)

/-- After the bias-and-relu pass its output array holds the reference's hidden features. -/
theorem hidden : W5 m ρ c (Proc.devRef .tc main_v47)
    = val_main_v49 (F := Ideal) (m ((c : Thread nD τ).loc main_arg0)) (m ((c : Thread nD τ).loc main_arg1)) (m ((c : Thread nD τ).loc main_arg2)) (m ((c : Thread nD τ).loc main_arg3)) :=
  (W5_arr m ρ c 2).trans ((final1 (V4 m ρ) c).trans (by
    show addRowMax (Ideal.ofBits .f32 0x00000000#32) (W4 m ρ c (Proc.devRef .tc main_v45)) (W4 m ρ c (Proc.devRef .tc main_v46)) = _
    rw [aggregated1, biasRow1 m ρ c (agg1_bias m ρ c)]
    exact (hostBiasRelu _ _ _ _ _).symm))

/-- After the second matrix product its output array holds h·W2. -/
theorem projected2 : W6 m ρ c (Proc.devRef .tc main_v48)
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans ((final2 (V5 m ρ) c).trans (by
    show mm64 (W5 m ρ c (Proc.devRef .tc main_v47)) (W5 m ρ c (Proc.devRef .tc main_arg4)) = _
    rw [hidden, mm2_weight]
    exact (hostProduct2 _ _ _ _ _).symm))

/-- The second aggregation's result is the reference's. -/
theorem aggregated2 : W7 m ρ c (Proc.devRef .tc main_v76)
    = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  aggregate2 m ρ c (projected2 m ρ c) (agg2_src m ρ c) (agg2_dst m ρ c) (agg2_norm m ρ c)

/-- The returned array is the reference's result. -/
theorem returned : W8 m ρ c (Proc.devRef .tc main_v78)
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((final3 (V7 m ρ) c).trans (by
    show addRow (W7 m ρ c (Proc.devRef .tc main_v76)) (W7 m ρ c (Proc.devRef .tc main_v77)) = _
    rw [aggregated2, biasRow2 m ρ c (agg2_bias m ρ c)]
    exact (hostBias _ _ _ _ _ _ _).symm))

/-- The idealized kernel's run: every weakly fair execution terminates with the result buffer at the reference's value
    of the launch contents of the arguments, and the arguments unchanged. -/
theorem run : θ_run defs (onTc (τ := τ) (main (F := Ideal))) ⟨m, fun _ => 0, ρ⟩ (fun r => ∀ c : Dev nD,
      r.2.mem ((c.tc : Thread nD τ).loc main_v78)
        = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (returned m ρ c), (h c).2⟩) (run_regions m ρ)

end Cert.KernelIdeal.Whole

end
-- ==== Proof.lean ====
/-
  A two-layer graph convolution: out = Â · relu(Â · (x W1) + b1) · W2 + b2, where Â aggregates over the edges (self
  loops added) with the symmetric normalisation d(source) · d(target), d(v) = [deg v > 0] · rsqrt(max(deg v, 1)).
  The kernel program computes the two dense products x W1 and h W2 and the two bias passes (the first under a
  maximum with zero) in four pipelined regions over row blocks of 5000 nodes, and the gathers and scatter-adds of
  the aggregation as host operations between them; the reference computes everything with host operations.

  At the extended reals the two programs are the same function of their arguments, with no condition on the inputs:
  a region's row blocks tile its output array, and block by block the region computes "rows times the weight matrix"
  or "a bias row added to every row" (Proof/RowBlocks*.lean over Proof/LayerStages.lean); the host's matrix product
  is that same sum over the contracted axis, its broadcast bias that same row, its relu that same maximum
  (Proof/MeetReference.lean); and the aggregation's host operations are literally the reference's, applied to equal
  operands (Proof/Entry.lean, Proof/Carried.lean, Proof/Aggregate1.lean, Proof/Aggregate2.lean). Proof/Result.lean
  chains these through the program's boundaries, over the whole run of Proof/KernelRun.lean.

  The three frames: the two kernel programs' are the generated frame certificates; the reference's is its run with
  the result dropped. The idealization rewrote no operation, so there is nothing to preserve.
-/
import proofs.«173803_j26431228740293_1_alg».proof.Defs
import proofs.«173803_j26431228740293_1_alg».proof.Proof.Gen.Kernel
import proofs.«173803_j26431228740293_1_alg».proof.Proof.Gen.Kernel.Skeleton
import proofs.«173803_j26431228740293_1_alg».proof.Proof.Gen.Kernel.Launch
import proofs.«173803_j26431228740293_1_alg».proof.Proof.Gen.Kernel.Points
import proofs.«173803_j26431228740293_1_alg».proof.Proof.Gen.Kernel.Frame
import proofs.«173803_j26431228740293_1_alg».proof.Proof.Gen.KernelIdeal
import proofs.«173803_j26431228740293_1_alg».proof.Proof.Gen.KernelIdeal.Skeleton
import proofs.«173803_j26431228740293_1_alg».proof.Proof.Gen.KernelIdeal.Launch
import proofs.«173803_j26431228740293_1_alg».proof.Proof.Gen.KernelIdeal.Points
import proofs.«173803_j26431228740293_1_alg».proof.Proof.Gen.KernelIdeal.Frame
import proofs.«173803_j26431228740293_1_alg».proof.Proof.Gen.ReferenceIdeal
import proofs.«173803_j26431228740293_1_alg».proof.Proof.Gen.Pre_finite_inputs
import proofs.«173803_j26431228740293_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the reference's value of those arguments in their
    result buffers: the kernel by the run read through its boundaries, the reference by its own run. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
